-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S3200000 .f32) (main_arg2 : FVec F S64x64 .f32) (main_arg3 : FVec F S64 .f32) (main_arg4 : IVec S3200000 32) (main_arg5 : IVec S3200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S_ : Shape := ⟨0, ![]⟩
abbrev S3200000x1 : Shape := ⟨2, ![3200000, 1]⟩
abbrev S3200000x64 : Shape := ⟨2, ![3200000, 64]⟩
abbrev S50000x128 : Shape := ⟨2, ![50000, 128]⟩
abbrev S128x128 : Shape := ⟨2, ![128, 128]⟩
abbrev S1 : Shape := ⟨1, ![1]⟩
abbrev S2 : Shape := ⟨1, ![2]⟩
abbrev S128 : Shape := ⟨1, ![128]⟩
abbrev S1x128 : Shape := ⟨2, ![1, 128]⟩
abbrev S10000x128 : Shape := ⟨2, ![10000, 128]⟩

abbrev nBuf : Space → Nat
  | .hbm => 43
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S3200000, .f32⟩
  | .hbm, ⟨2, _⟩ => ⟨S64x64, .f32⟩
  | .hbm, ⟨3, _⟩ => ⟨S64, .f32⟩
  | .hbm, ⟨4, _⟩ => ⟨S3200000, .i32⟩
  | .hbm, ⟨5, _⟩ => ⟨S3200000, .i32⟩
  | .hbm, ⟨6, _⟩ => ⟨S_, .i32⟩
  | .hbm, ⟨7, _⟩ => ⟨S3200000, .i32⟩
  | .hbm, ⟨8, _⟩ => ⟨S3200000, .i1⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S3200000x1, .i32⟩
  | .hbm, ⟨14, _⟩ => ⟨S3200000x64, .f32⟩
  | .hbm, ⟨15, _⟩ => ⟨S3200000x1, .f32⟩
  | .hbm, ⟨16, _⟩ => ⟨S3200000x64, .f32⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S128x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S128x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S128x128, .f32⟩
  | .hbm, ⟨38, _⟩ => ⟨S128x128, .bf16⟩
  | .hbm, ⟨39, _⟩ => ⟨S128, .f32⟩
  | .hbm, ⟨40, _⟩ => ⟨S1x128, .f32⟩
  | .hbm, ⟨41, _⟩ => ⟨S50000x128, .f32⟩
  | .hbm, ⟨42, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000x64_S50000x128 : S100000x64.ShapeCasts S50000x128
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S50000x128_S100000x64 : S50000x128.ShapeCasts S100000x64
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S128x128_S2_S64x64_01_n_01_0_wf : ScatterDims.WF S128x128 S2 S64x64 [0, 1] [] [0, 1] 0
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S50000x128.size a
  hwx0_4 : ∀ i : grid0.Coords, EltTy.bits .f32 = 32 ∨ (Rect.block (s := S50000x128) S10000x128.size (cc0_transform_4 i) (hinb0_4 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S128x128_S2_S64x64_01_n_01_0 : ScatterDims S128x128 S2 S64x64 where
  updateWindowDims := [0, 1]
  insertedWindowDims := []
  scatterDimsToOperandDims := [0, 1]
  indexVectorDim := 0
  wf := scatter_S128x128_S2_S64x64_01_n_01_0_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v13) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩

abbrev nBuf : Space → Nat
  | .hbm => 27
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S3200000, .f32⟩
  | .hbm, ⟨2, _⟩ => ⟨S64x64, .f32⟩
  | .hbm, ⟨3, _⟩ => ⟨S64, .f32⟩
  | .hbm, ⟨4, _⟩ => ⟨S3200000, .i32⟩
  | .hbm, ⟨5, _⟩ => ⟨S3200000, .i32⟩
  | .hbm, ⟨6, _⟩ => ⟨S_, .i32⟩
  | .hbm, ⟨7, _⟩ => ⟨S3200000, .i32⟩
  | .hbm, ⟨8, _⟩ => ⟨S3200000, .i1⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S3200000x1, .i32⟩
  | .hbm, ⟨14, _⟩ => ⟨S3200000x64, .f32⟩
  | .hbm, ⟨15, _⟩ => ⟨S3200000x1, .f32⟩
  | .hbm, ⟨16, _⟩ => ⟨S3200000x64, .f32⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Payload.lean ====
/-
  What one grid step stores, read at an index.  The body loads a block `x` of 10000 packed rows, the whole
  128 × 128 weight `w`, the one bias row `β` and the matching block `a` of the packed aggregate, and stores
  `x · w + β + a`: at row `r` and column `c` the sum over `l < 128` of `x (r, l) * w (l, c)`, plus `β (0, c)`, plus
  `a (r, c)`.  The two changes of float format (the block and the weight to bf16) are the identity on the
  extended reals, and the matrix unit's product into a zero accumulator is the plain sum.
-/
import proofs.«149925_j8907762172421_2_alg».proof.Proof.Gen.KernelIdeal.Skeleton
import proofs.«149925_j8907762172421_2_alg».proof.Proof.LibDotRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Idealize.ShloMosaic Idealize.ShloMosaic.TcCoe Idealize.ShloMosaic.ValueIdx Idealize.SL.Sem

open Cert.KernelIdeal Cert.KernelIdeal.Gen
open scoped BigOperators

/-- The stored value at row `r`, column `c` of the block. -/
theorem pay_apply (x : Vec Ideal S10000x128 .f32) (w : Vec Ideal S128x128 .bf16) (β : Vec Ideal S1x128 .f32)
    (a : Vec Ideal S10000x128 .f32) (r : Fin 10000) (c : Fin 128) :
    k0_pay1 x w β a (ix2 r c)
      = (∑ l : Fin 128, x (ix2 r l) * w (ix2 l c)) + β (ix2 (0 : Fin 1) c) + a (ix2 r c) := by
  unfold k0_pay1
  show FloatOps.matmul (F := Ideal) dot_S10000x128_S128x128_S10000x128_1_0_0_1_n_n none
        (truncf .bf16 (shapeCast S10000x128 x shapeCasts_S10000x128_S10000x128) bitsLt_bf16_f32)
        (shapeCast S128x128 w shapeCasts_S128x128_S128x128) (constant S10000x128 .f32 0x00000000#32) (ix2 r c)
      + broadcastTo S10000x128 (shapeCast S1x128 β shapeCasts_S1x128_S1x128) broadcasts_S1x128_S10000x128 (ix2 r c)
      + shapeCast S10000x128 a shapeCasts_S10000x128_S10000x128 (ix2 r c) = _
  rw [shapeCast_self, shapeCast_self, shapeCast_self, shapeCast_self, broadcastTo_1b_ab_apply,
    matmul_zero_rows dot_S10000x128_S128x128_S10000x128_1_0_0_1_n_n none rfl rfl
      (fun _ _ => rfl) (fun _ _ => rfl) (fun _ _ => rfl) (fun _ _ => rfl)]
  rfl

end Cert.KernelIdeal.Bridge
end
-- ==== Proof.BlocksIdx.lean ====
/-
  The index arithmetic of the five grid points.  Point `t` stages rows [10000 t, 10000 t + 10000) of the packed node
  states and of the packed aggregate, the whole packed weight and the one bias row, and writes back the same rows of
  the result.  So what the body combines at row `r` and column `q` of its blocks is ONE function of the four whole
  arrays, read at packed row `10000 t + r` and column `q`: the sum over `l < 128` of `xp (p, l) * w (l, j)`, plus
  `β (0, j)`, plus `ap (p, j)`.  The five row blocks tile the 50000 rows (row `p` is in block `p / 10000`).
-/
import proofs.«149925_j8907762172421_2_alg».proof.Proof.Gen.KernelIdeal.Frame
import proofs.«149925_j8907762172421_2_alg».proof.Proof.Payload
import Idealize.ShloMosaic.Lib.Pipeline.Value
import Idealize.ShloMosaic.Lib.ValueIdx

noncomputable section

namespace Cert.KernelIdeal.Bridge

open Idealize.ShloMosaic Idealize.ShloMosaic.TcCoe Idealize.ShloMosaic.ValueIdx Idealize.SL.Sem

open Cert.KernelIdeal Cert.KernelIdeal.Gen
open Idealize.ShloMosaic.Pipeline (Dat)
open scoped BigOperators

/-- The packed result as one function of the four staged arrays. -/
def packedOut (xp : S50000x128.Idx → EReal) (w : S128x128.Idx → EReal) (β : S1x128.Idx → EReal)
    (ap : S50000x128.Idx → EReal) : S50000x128.Idx → EReal :=
  fun p => (∑ l : Fin 128, xp (ix2 (p 0) l) * w (ix2 l (p 1))) + β (ix2 (0 : Fin 1) (p 1)) + ap p

theorem hz : (![0, 0] : Fin 2 → Nat) = fun _ => 0 := funext fun a => by fin_cases a <;> rfl

/-- The printed index maps over the grid: the node states, the aggregate and the result move together down the
    rows; the weight and the bias stay at block zero; nothing moves along the columns. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 4 :=
  (by decide +kernel : ∀ t : Fin grid0.N, _)

/-- Every row block is some point's. -/
theorem idx_onto : ∀ q0 : Fin 5, ∃ t : Fin cfg0.N, win0_4.index t = ![q0.val, 0] :=
  (by decide +kernel : ∀ q0 : Fin 5, ∃ t : Fin grid0.N, win0_4.index t = ![q0.val, 0])

/-- The four staged blocks at point `t`, combined as the body combines them at row `r` and column `q` of the
    block, are `packedOut` of the four whole arrays at the element of the result's block `t` with those coordinates:
    each staged block is read at the rows the result's block names. -/
theorem block_read (A13 A14 : S50000x128.Idx → EReal) (A24 : S128x128.Idx → EReal) (A26 : S1x128.Idx → EReal)
    (t : Fin cfg0.N) (r : Fin 10000) (q : Fin 128) :
    (∑ l : Fin 128, A13 (((cfg0.win 0).blk t).view.emb (ix2 r l)) * A24 (((cfg0.win 1).blk t).view.emb (ix2 l q)))
        + A26 (((cfg0.win 2).blk t).view.emb (ix2 (0 : Fin 1) q))
        + A14 (((cfg0.win 3).blk t).view.emb (ix2 r q))
      = packedOut A13 A24 A26 A14 (((cfg0.win 4).blk t).view.emb (ix2 r q)) := by
  obtain ⟨e00, e01, e10, e11, e20, e21, e30, e31, e41, e40⟩ := idx_facts t
  have hr : r.val < 10000 := r.isLt
  have hq : q.val < 128 := q.isLt
  have h0 : ∀ l : Fin 128, ((cfg0.win 0).blk t).view.emb (ix2 r l)
      = ix2 ((((cfg0.win 4).blk t).view.emb (ix2 r q)) 0) l := fun l => by
    have hl : l.val < 128 := l.isLt
    funext a; apply Fin.ext
    match a with
    | ⟨0, _⟩ => show win0_0.index t (0 : Fin 2) * 10000 + 1 * r.val = win0_4.index t (0 : Fin 2) * 10000 + 1 * r.val; omega
    | ⟨1, _⟩ => show win0_0.index t (1 : Fin 2) * 128 + 1 * l.val = l.val; omega
  have h1 : ∀ l : Fin 128, ((cfg0.win 1).blk t).view.emb (ix2 l q)
      = ix2 l ((((cfg0.win 4).blk t).view.emb (ix2 r q)) 1) := fun l => by
    have hl : l.val < 128 := l.isLt
    funext a; apply Fin.ext
    match a with
    | ⟨0, _⟩ => show win0_1.index t (0 : Fin 2) * 128 + 1 * l.val = l.val; omega
    | ⟨1, _⟩ => show win0_1.index t (1 : Fin 2) * 128 + 1 * q.val = win0_4.index t (1 : Fin 2) * 128 + 1 * q.val; omega
  have h2 : ((cfg0.win 2).blk t).view.emb (ix2 (0 : Fin 1) q)
      = ix2 (0 : Fin 1) ((((cfg0.win 4).blk t).view.emb (ix2 r q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_4.index t (1 : Fin 2) * 128 + 1 * q.val; omega
  have h3 : ((cfg0.win 3).blk t).view.emb (ix2 r q) = ((cfg0.win 4).blk t).view.emb (ix2 r q) := by
    funext a; apply Fin.ext
    match a with
    | ⟨0, _⟩ => show win0_3.index t (0 : Fin 2) * 10000 + 1 * r.val = win0_4.index t (0 : Fin 2) * 10000 + 1 * r.val; omega
    | ⟨1, _⟩ => show win0_3.index t (1 : Fin 2) * 128 + 1 * q.val = win0_4.index t (1 : Fin 2) * 128 + 1 * q.val; omega
  unfold packedOut
  rw [h2, h3]
  refine congrArg (· + _) (congrArg (· + _) (Finset.sum_congr rfl fun l _ => ?_))
  exact congrArg₂ (· * ·) (congrArg A13 (h0 l)) (congrArg A24 (h1 l))

/-- The body's stored value over the four blocks of ANY four arrays staged at point `t`, at an element of the block, is
    `packedOut` of the four arrays at the corresponding element of the result's block `t`. -/
theorem block_pay (A13 A14 : S50000x128.Idx → EReal) (A24 : S128x128.Idx → EReal) (A26 : S1x128.Idx → EReal)
    (t : Fin cfg0.N) (j : S10000x128.Idx) :
    k0_pay1 (F := Ideal) (((cfg0.win 0).blk t).view.read (Elt Ideal) A13) (((cfg0.win 1).blk t).view.read (Elt Ideal) A24)
        (((cfg0.win 2).blk t).view.read (Elt Ideal) A26) (((cfg0.win 3).blk t).view.read (Elt Ideal) A14) j
      = packedOut A13 A24 A26 A14 (((cfg0.win 4).blk t).view.emb j) := by
  obtain ⟨r, q, rfl⟩ : ∃ (r : Fin 10000) (q : Fin 128), j = ix2 r q := ⟨j 0, j 1, eq_ix2 j⟩
  exact (pay_apply _ _ _ _ r q).trans (block_read A13 A14 A24 A26 t r q)

/-- An index of the packed result is in point `t`'s block iff each coordinate is in the block's range on its axis. -/
theorem mem_blk (t : Fin cfg0.N) (i : S50000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v27).slice (win0_4.rect t)).set ↔ _
  rw [View.set_slice_whole, Rect.mem_set_unit]
  exact Iff.rfl

/-- The five blocks cover the packed result. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

end Cert.KernelIdeal.Bridge
end
-- ==== Proof.Blocks.lean ====
/-
  From what each grid step writes back to the whole packed result.  What point `t` writes back is the body's stored
  value over the four blocks staged at `t`, which is block `t` of one function of the four staged arrays; the five
  blocks cover the result, so after the run the result array is that function of the arrays the region was entered
  with.
-/
import proofs.«149925_j8907762172421_2_alg».proof.Proof.Gen.KernelIdeal.Frame
import proofs.«149925_j8907762172421_2_alg».proof.Proof.Payload
import proofs.«149925_j8907762172421_2_alg».proof.Proof.BlocksIdx
import Idealize.ShloMosaic.Lib.Pipeline.Value
import Idealize.ShloMosaic.Lib.ValueIdx

noncomputable section

namespace Cert.KernelIdeal.Bridge

open Idealize.ShloMosaic Idealize.ShloMosaic.TcCoe Idealize.ShloMosaic.ValueIdx Idealize.SL.Sem

open Cert.KernelIdeal Cert.KernelIdeal.Gen
open Idealize.ShloMosaic.Pipeline (Dat)
open scoped BigOperators

variable (m : (ℓ : Loc nD τ sig) → Buf (Elt Ideal) ℓ)

/-- What point `t` writes back is block `t` of `packedOut` of the arrays as the region finds them. -/
theorem flushed_eq (c : Dev nD) (t : Fin cfg0.N) :
    (dats m 0 c).flushed 4 t = ((cfg0.win 4).blk t).view.read (Elt Ideal)
      (packedOut (V m c main_v13) (V m c main_v24) (V m c main_v26) (V m c main_v14)) := by
  show (cfg0.win 4).cut (grid0.coords t) ((dats m 0 c).after 4 t) = _
  rw [after0_4]
  unfold out0_4
  rw [View.canon_unit_zero hz]
  simp only [View.ld_unit_zero (S := S10000x128) hz, View.ld_unit_zero (S := S128x128) hz,
    View.ld_unit_zero (S := S1x128) hz]
  unfold iblk
  funext j
  exact block_pay (V m c main_v13) (V m c main_v14) (V m c main_v24) (V m c main_v26) t j

/-- The packed result after the run. -/
theorem final (c : Dev nD) :
    (dats m 0 c).arrAt 4 cfg0.N = packedOut (V m c main_v13) (V m c main_v24) (V m c main_v26) (V m c main_v14) :=
  (dats m 0 c).arrAt_eq_of_cover 4 _ (fun t _ => flushed_eq m c t) cover

end Cert.KernelIdeal.Bridge
end
-- ==== Proof.LibScatterSet.lean ====
/-
  A scatter read at one element when at most one update lands on it.

  The host scatter is the left fold, over the update positions in row-major order, of the step "if the
  update's result index is inside the operand, replace the element there by the body applied to the old element
  and the update".  An element of the operand is therefore changed only by the updates whose result index is
  that element.  If no update lands on an element, it keeps the operand's value; if exactly one update does,
  the element ends at the body applied to the operand's value and that update, whatever the body is: the
  updates before and after it leave the element alone.  This is the case of `x.at[window].set(v)` (the body
  returns the update) with a window of distinct positions, and of any scatter with pairwise distinct result
  indices.
-/
import Idealize.ShloMosaic.PureOps.ShapeOps

namespace Idealize.ShloMosaic.ScatterSet

open Idealize.ShloMosaic

variable {α : Type} {s si u : Shape} {w : Nat}

/-- One step of the scatter's fold at update position `n`. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of `step`. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land on `i` leaves the element at `i` alone. -/
theorem step_of_ne (d : ScatterDims s si u) (f : α → α → α) (idx : IVec si w) (upd : u.Idx → α)
    (r : s.Idx → α) (n : Fin u.numel) (i : s.Idx)
    (h : d.resultIdx? (u.rowMajor.symm n) idx ≠ some i) : step d f idx upd r n i = r i := by
  unfold step
  generalize d.resultIdx? (u.rowMajor.symm n) idx = o at h ⊢
  cases o with
  | none => rfl
  | some i0 =>
    show (if i = i0 then _ else r i) = r i
    rw [if_neg]
    intro e
    exact h (by rw [e])

/-- A step whose update lands on `i` applies the body there. -/
theorem step_of_eq (d : ScatterDims s si u) (f : α → α → α) (idx : IVec si w) (upd : u.Idx → α)
    (r : s.Idx → α) (n : Fin u.numel) (i : s.Idx)
    (h : d.resultIdx? (u.rowMajor.symm n) idx = some i) :
    step d f idx upd r n i = f (r i) (upd (u.rowMajor.symm n)) := by
  unfold step
  rw [h]
  show (if i = i then _ else r i) = _
  rw [if_pos rfl]

/-- Positions none of which lands on `i` leave the element at `i` alone. -/
theorem foldl_of_miss (d : ScatterDims s si u) (f : α → α → α) (idx : IVec si w) (upd : u.Idx → α) (i : s.Idx) :
    ∀ (L : List (Fin u.numel)) (r : s.Idx → α),
      (∀ n ∈ L, d.resultIdx? (u.rowMajor.symm n) idx ≠ some i) → L.foldl (step d f idx upd) r i = r i
  | [], _, _ => rfl
  | n :: L, r, h => by
    rw [List.foldl_cons, foldl_of_miss d f idx upd i L _ (fun n' hn' => h n' (List.mem_cons_of_mem _ hn'))]
    exact step_of_ne d f idx upd r n i (h n List.mem_cons_self)

/-- Distinct positions exactly one of which, `n0`, lands on `i`: the element ends at the body applied to what it
    held and that position's update. -/
theorem foldl_of_unique (d : ScatterDims s si u) (f : α → α → α) (idx : IVec si w) (upd : u.Idx → α) (i : s.Idx)
    (n0 : Fin u.numel) (h0 : d.resultIdx? (u.rowMajor.symm n0) idx = some i) :
    ∀ (L : List (Fin u.numel)) (r : s.Idx → α), L.Nodup → n0 ∈ L →
      (∀ n ∈ L, d.resultIdx? (u.rowMajor.symm n) idx = some i → n = n0) →
      L.foldl (step d f idx upd) r i = f (r i) (upd (u.rowMajor.symm n0))
  | [], _, _, hm, _ => absurd hm List.not_mem_nil
  | n :: L, r, hnd, hm, hu => by
    rw [List.foldl_cons]
    have hnd' := List.nodup_cons.mp hnd
    by_cases e : n = n0
    · subst e
      rw [foldl_of_miss d f idx upd i L _ (fun n' hn' hr => hnd'.1 ((hu n' (List.mem_cons_of_mem _ hn') hr) ▸ hn'))]
      exact step_of_eq d f idx upd r n i h0
    · have hm' : n0 ∈ L := by
        rcases List.mem_cons.mp hm with h | h
        · exact absurd h.symm e
        · exact h
      rw [foldl_of_unique d f idx upd i n0 h0 L _ hnd'.2 hm' (fun n' hn' => hu n' (List.mem_cons_of_mem _ hn'))]
      rw [step_of_ne d f idx upd r n i (fun hr => e (hu n List.mem_cons_self hr))]

/-- An update lands on `i` when, on every axis, the window's start plus the window coordinate is `i`'s coordinate. -/
theorem resultIdx?_eq_some (d : ScatterDims s si u) (idx : IVec si w) (j : u.Idx) (i : s.Idx)
    (h : ∀ a, d.start j idx a + d.window j a = ((i a).val : Int)) : d.resultIdx? j idx = some i := by
  unfold ScatterDims.resultIdx?
  have hb : ∀ a, 0 ≤ d.start j idx a + d.window j a ∧ d.start j idx a + d.window j a < s.size a := fun a => by
    rw [h a]; exact ⟨Int.natCast_nonneg _, by exact_mod_cast (i a).isLt⟩
  rw [dif_pos hb]
  congr 1
  funext a
  apply Fin.ext
  show (d.start j idx a + d.window j a).toNat = (i a).val
  rw [h a]; exact Int.toNat_natCast _

/-- Conversely, an update that lands on `i` has, on every axis, start plus window coordinate equal to `i`'s. -/
theorem eq_of_resultIdx?_eq_some (d : ScatterDims s si u) (idx : IVec si w) (j : u.Idx) (i : s.Idx)
    (h : d.resultIdx? j idx = some i) (a : Fin s.rank) : d.start j idx a + d.window j a = ((i a).val : Int) := by
  unfold ScatterDims.resultIdx? at h
  by_cases hb : ∀ a, 0 ≤ d.start j idx a + d.window j a ∧ d.start j idx a + d.window j a < s.size a
  · rw [dif_pos hb] at h
    have e := Option.some.inj h
    rw [← e]
    show _ = (((d.start j idx a + d.window j a).toNat : Nat) : Int)
    rw [Int.toNat_of_nonneg (hb a).1]
  · rw [dif_neg hb] at h
    cases h

/-- An element no update lands on keeps the operand's value. -/
theorem scatter_apply_of_miss (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_of_miss d f idx upd i _ x (fun n _ => h _)

/-- An element exactly one update `j` lands on ends at the body applied to the operand's value and that update. -/
theorem scatter_apply_of_unique (d : ScatterDims s si u) (f : α → α → α) (x : s.Idx → α) (idx : IVec si w)
    (upd : u.Idx → α) (i : s.Idx) (j : u.Idx) (hj : d.resultIdx? j idx = some i)
    (hu : ∀ j', d.resultIdx? j' idx = some i → j' = j) :
    Host.scatter d f x idx upd i = f (x i) (upd j) := by
  rw [scatter_eq_foldl]
  have e : u.rowMajor.symm (u.rowMajor j) = j := u.rowMajor.symm_apply_apply j
  have := foldl_of_unique d f idx upd i (u.rowMajor j) (by rw [e]; exact hj) (List.finRange u.numel) x
    (List.nodup_finRange _) (List.mem_finRange _)
    (fun n _ hr => by
      have := hu _ hr
      rw [← this]; exact (u.rowMajor.apply_symm_apply n).symm)
  rw [this, e]

end Idealize.ShloMosaic.ScatterSet
-- ==== Proof.Weight.lean ====
/-
  The packed weight.  The host builds a 128 × 128 matrix from the 64 × 64 weight `W`: zeros, then `W` written into
  the window of rows and columns [0, 64), then `W` written into the window of rows and columns [64, 128).  Each
  write is a scatter of one 64 × 64 window at the start `(o, o)` whose body returns the update, so update `(a, b)`
  lands on `(o + a, o + b)`, distinct updates land on distinct elements, and an element outside the window keeps
  what it held.  The result is the block-diagonal matrix diag(W, W): at `(l, c)` it is `W (l, c)` when both are
  below 64, `W (l - 64, c - 64)` when both are at least 64, and zero otherwise.  A row vector times this matrix,
  read at column `64 q + c'`, is therefore the half `q` of the row times column `c'` of `W`: the other half meets
  only zeros, and a product with zero is zero on the extended reals.
-/
import proofs.«149925_j8907762172421_2_alg».proof.Proof.Gen.KernelIdeal
import proofs.«149925_j8907762172421_2_alg».proof.Proof.LibScatterSet
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Idealize.ShloMosaic Idealize.ShloMosaic.TcCoe Idealize.ShloMosaic.ValueIdx Idealize.SL.Sem

open Cert.KernelIdeal Cert.KernelIdeal.Facts₀ Idealize.ShloMosaic.ScatterSet
open scoped BigOperators

local notation "dW" => scatter_S128x128_S2_S64x64_01_n_01_0

/-! ## The window write's dimension record, read -/

/-- The window coordinate of update `j` on axis `a` is `j`'s coordinate there. -/
theorem window_eq (j : S64x64.Idx) (a : Fin 2) : ScatterDims.window dW j a = (j a).val := by
  match a with
  | ⟨0, _⟩ => rfl
  | ⟨1, _⟩ => rfl

theorem siIdx_eq0 (j : S64x64.Idx) (h) : ScatterDims.siIdx dW j ⟨0, h⟩ = ix1 (0 : Fin 2) := by
  funext b
  match b with
  | ⟨0, _⟩ => rfl

theorem siIdx_eq1 (j : S64x64.Idx) (h) : ScatterDims.siIdx dW j ⟨1, h⟩ = ix1 (1 : Fin 2) := by
  funext b
  match b with
  | ⟨0, _⟩ => rfl

theorem start_eq0 (idx : IVec S2 32) (j : S64x64.Idx) :
    ScatterDims.start dW j idx (0 : Fin 2) = (idx (ix1 (0 : Fin 2))).toInt := by
  unfold ScatterDims.start
  rw [dif_pos (by decide)]
  exact congrArg (fun k => (idx k).toInt) (siIdx_eq0 j _)

theorem start_eq1 (idx : IVec S2 32) (j : S64x64.Idx) :
    ScatterDims.start dW j idx (1 : Fin 2) = (idx (ix1 (1 : Fin 2))).toInt := by
  unfold ScatterDims.start
  rw [dif_pos (by decide)]
  exact congrArg (fun k => (idx k).toInt) (siIdx_eq1 j _)

/-- The window's start on axis `a` is component `a` of the index vector, read signed. -/
theorem start_eq (idx : IVec S2 32) (j : S64x64.Idx) (a : Fin 2) :
    ScatterDims.start dW j idx a = (idx (ix1 a)).toInt := by
  match a with
  | ⟨0, _⟩ => exact start_eq0 idx j
  | ⟨1, _⟩ => exact start_eq1 idx j

/-- The index vector `[o, o]`, as the host builds it: two one-element vectors of the word `o`, concatenated. -/
def idxOf (o : BitVec 32) : IVec S2 32 :=
  concatenate S2 0 [⟨S1, broadcastInDim S1 ![] bcast_S_S1 (constantI S_ 32 o)⟩,
    ⟨S1, broadcastInDim S1 ![] bcast_S_S1 (constantI S_ 32 o)⟩] concatenates_S1_S1_S2_d0

theorem idxOf_apply (o : BitVec 32) (a : Fin 2) : idxOf o (ix1 a) = o := by
  match a with
  | ⟨0, _⟩ => rfl
  | ⟨1, _⟩ => rfl

/-! ## One window write, read at an element -/

/-- Writing the 64 × 64 matrix `W` into the window at `(on, on)` of `A`: inside the window the element is `W`'s at
    the offset coordinates, outside it is `A`'s. -/
theorem window_set_apply (A : S128x128.Idx → EReal) (o : BitVec 32) (on : Nat) (hon : o.toInt = (on : Int))
    (W : S64x64.Idx → EReal) (l c : Fin 128) :
    Host.scatter dW (fun _ b => b) A (idxOf o) W (ix2 l c)
      = if h : (on ≤ l.val ∧ l.val < on + 64) ∧ (on ≤ c.val ∧ c.val < on + 64) then
          W (ix2 ⟨l.val - on, by omega⟩ ⟨c.val - on, by omega⟩)
        else A (ix2 l c) := by
  have hs : ∀ (j : S64x64.Idx) (a : Fin 2), ScatterDims.start dW j (idxOf o) a = (on : Int) := fun j a => by
    rw [start_eq, idxOf_apply, hon]
  have key : ∀ (j : S64x64.Idx), ScatterDims.resultIdx? dW j (idxOf o) = some (ix2 l c) →
      (on : Int) + ((j 0).val : Int) = (l.val : Int) ∧ (on : Int) + ((j 1).val : Int) = (c.val : Int) := fun j hj => by
    have e0 := eq_of_resultIdx?_eq_some dW (idxOf o) j (ix2 l c) hj 0
    have e1 := eq_of_resultIdx?_eq_some dW (idxOf o) j (ix2 l c) hj 1
    rw [hs, window_eq] at e0 e1
    exact ⟨e0, e1⟩
  split
  · next h =>
    refine scatter_apply_of_unique dW (fun _ b => b) A (idxOf o) W (ix2 l c)
      (ix2 ⟨l.val - on, by omega⟩ ⟨c.val - on, by omega⟩) ?_ ?_
    · refine resultIdx?_eq_some dW (idxOf o) _ _ fun a => ?_
      rw [hs, window_eq]
      match a with
      | ⟨0, _⟩ => show (on : Int) + ((l.val - on : Nat) : Int) = (l.val : Int); omega
      | ⟨1, _⟩ => show (on : Int) + ((c.val - on : Nat) : Int) = (c.val : Int); omega
    · intro j' hj'
      obtain ⟨e0, e1⟩ := key j' hj'
      funext a
      apply Fin.ext
      match a with
      | ⟨0, _⟩ => show (j' 0).val = l.val - on; omega
      | ⟨1, _⟩ => show (j' 1).val = c.val - on; omega
  · next h =>
    refine scatter_apply_of_miss dW (fun _ b => b) A (idxOf o) W (ix2 l c) fun j hj => h ?_
    obtain ⟨e0, e1⟩ := key j hj
    have h0 : (j 0).val < 64 := (j 0).isLt
    have h1 : (j 1).val < 64 := (j 1).isLt
    omega

/-! ## The packed weight -/

/-- The packed weight as the host computes it from `W`. -/
def wbd (W : FVec Ideal S64x64 .f32) : FVec Ideal S128x128 .bf16 :=
  truncf .bf16
    (Host.scatter dW (fun _ b => b)
      (Host.scatter dW (fun _ b => b)
        (broadcastInDim S128x128 ![] bcast_S_S128x128 (constant (F := Ideal) S_ .f32 0x00000000#32)) (idxOf 0#32) W)
      (idxOf 64#32) W)
    bitsLt_bf16_f32

/-- The packed weight is block-diagonal. -/
theorem wbd_apply (W : FVec Ideal S64x64 .f32) (l c : Fin 128) :
    wbd W (ix2 l c)
      = if h : 64 ≤ l.val ∧ 64 ≤ c.val then W (ix2 ⟨l.val - 64, by omega⟩ ⟨c.val - 64, by omega⟩)
        else if h' : l.val < 64 ∧ c.val < 64 then W (ix2 ⟨l.val, h'.1⟩ ⟨c.val, h'.2⟩)
        else 0 := by
  unfold wbd
  rw [truncf_apply, window_set_apply _ 64#32 64 (by decide)]
  have hl := l.isLt
  have hc := c.isLt
  by_cases h : 64 ≤ l.val ∧ 64 ≤ c.val
  · rw [dif_pos ⟨⟨h.1, by omega⟩, ⟨h.2, by omega⟩⟩, dif_pos h]
  · rw [dif_neg (fun hh => h ⟨hh.1.1, hh.2.1⟩), dif_neg h, window_set_apply _ 0#32 0 (by decide)]
    by_cases h' : l.val < 64 ∧ c.val < 64
    · rw [dif_pos ⟨⟨Nat.zero_le _, by omega⟩, ⟨Nat.zero_le _, by omega⟩⟩, dif_pos h']
      rfl
    · rw [dif_neg (fun hh => h' ⟨by omega, by omega⟩), dif_neg h']
      show Ideal.ofBits .f32 0x00000000#32 = 0
      exact Ideal.ofBits_zero_f32

/-- A row `f` of 128 entries times the packed weight, at column `64 q + c'`, is the half `q` of the row times column `c'`
    of `W`. -/
theorem sum_wbd (f : Fin 128 → EReal) (W : FVec Ideal S64x64 .f32) (q : Fin 2) (c' : Fin 64) :
    ∑ l : Fin 128, f l * wbd W (ix2 l ⟨q.val * 64 + c'.val, by omega⟩)
      = ∑ k : Fin 64, f ⟨q.val * 64 + k.val, by omega⟩ * W (ix2 k c') := by
  have hc' := c'.isLt
  rw [show (∑ l : Fin 128, f l * wbd W (ix2 l ⟨q.val * 64 + c'.val, by omega⟩))
      = ∑ l : Fin (64 + 64), f l * wbd W (ix2 l ⟨q.val * 64 + c'.val, by omega⟩) from rfl, Fin.sum_univ_add]
  match q with
  | ⟨0, _⟩ =>
    have h2 : ∑ k : Fin 64, f (Fin.natAdd 64 k) * wbd W (ix2 (Fin.natAdd 64 k) ⟨0 * 64 + c'.val, by omega⟩) = 0 :=
      Finset.sum_eq_zero fun k _ => by
        have hk := k.isLt
        rw [wbd_apply, dif_neg (by show ¬ (64 ≤ 64 + k.val ∧ 64 ≤ 0 * 64 + c'.val); omega),
          dif_neg (by show ¬ (64 + k.val < 64 ∧ 0 * 64 + c'.val < 64); omega), mul_zero]
    rw [h2, add_zero]
    refine Finset.sum_congr rfl fun k _ => ?_
    have hk := k.isLt
    rw [wbd_apply, dif_neg (by show ¬ (64 ≤ k.val ∧ 64 ≤ 0 * 64 + c'.val); omega),
      dif_pos (by show k.val < 64 ∧ 0 * 64 + c'.val < 64; omega)]
    refine congrArg₂ (· * ·) (congrArg f (Fin.ext ?_)) (congrArg W ?_)
    · show k.val = 0 * 64 + k.val; omega
    · funext a
      apply Fin.ext
      match a with
      | ⟨0, _⟩ => rfl
      | ⟨1, _⟩ => show 0 * 64 + c'.val = c'.val; omega
  | ⟨1, _⟩ =>
    have h1 : ∑ k : Fin 64, f (Fin.castAdd 64 k) * wbd W (ix2 (Fin.castAdd 64 k) ⟨1 * 64 + c'.val, by omega⟩) = 0 :=
      Finset.sum_eq_zero fun k _ => by
        have hk := k.isLt
        rw [wbd_apply, dif_neg (by show ¬ (64 ≤ k.val ∧ 64 ≤ 1 * 64 + c'.val); omega),
          dif_neg (by show ¬ (k.val < 64 ∧ 1 * 64 + c'.val < 64); omega), mul_zero]
    rw [h1, zero_add]
    refine Finset.sum_congr rfl fun k _ => ?_
    have hk := k.isLt
    rw [wbd_apply, dif_pos (by show 64 ≤ 64 + k.val ∧ 64 ≤ 1 * 64 + c'.val; omega)]
    refine congrArg₂ (· * ·) (congrArg f (Fin.ext ?_)) (congrArg W ?_)
    · show 64 + k.val = 1 * 64 + k.val; omega
    · funext a
      apply Fin.ext
      match a with
      | ⟨0, _⟩ => show 64 + k.val - 64 = k.val; omega
      | ⟨1, _⟩ => show 1 * 64 + c'.val - 64 = c'.val; omega

end Cert.KernelIdeal.Bridge
end
-- ==== Proof.HostPrefix.lean ====
/-
  The arrays the region is entered with, as the host lines before it leave them.  The packed node states are the
  node states reshaped from [100000, 64] to [50000, 128]; the packed aggregate is the aggregate (the scatter-add over
  destination nodes of the edge-weighted gathered rows) reshaped the same way; the weight window is the packed
  block-diagonal weight; the bias window is the bias concatenated with itself and laid out as one row of 128.
  The aggregate is named as one function of the node states, the edge weights and the two index arrays and is
  never opened: the reference computes the same term.
-/
import proofs.«149925_j8907762172421_2_alg».proof.Proof.Gen.KernelIdeal.Frame
import proofs.«149925_j8907762172421_2_alg».proof.Proof.Weight
import Idealize.ShloMosaic.Lib.StableHlo.Run
import Idealize.ShloMosaic.Lib.Pipeline.Value
import Idealize.ShloMosaic.Lib.ValueIdx

noncomputable section

namespace Cert.KernelIdeal.Bridge

open Idealize.ShloMosaic Idealize.ShloMosaic.TcCoe Idealize.ShloMosaic.ValueIdx Idealize.SL.Sem

open Cert.KernelIdeal Cert.KernelIdeal.Gen Idealize.ShloMosaic.StableHlo

/-- The aggregate: each edge's source row (negative indices wrapped, then clamped by the gather) scaled by the edge's
    weight, summed into the edge's destination row. -/
def aggr (x0 : FVec Ideal S100000x64 .f32) (x1 : FVec Ideal S3200000 .f32) (x4 x5 : IVec S3200000 32) :
    FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 x5)
    (mulf (broadcastInDim S3200000x64 ![0, 1] bcast_S3200000x1_S3200000x64_0_1
        (broadcastInDim S3200000x1 ![0] bcast_S3200000_S3200000x1_0 x1))
      (Host.gather gather_S100000x64_S3200000x1_S3200000x64_1_0_n_n_0_1_164 x0
        (broadcastInDim S3200000x1 ![0] bcast_S3200000_S3200000x1_0
          (select (cmpi .slt x4 (broadcastInDim S3200000 ![] bcast_S_S3200000 (constantI S_ 32 0#32)))
            (addi x4 (broadcastInDim S3200000 ![] bcast_S_S3200000 (constantI S_ 32 100000#32))) x4))))

/-- The bias row: the bias twice, as one row of 128. -/
def biasRow (b : FVec Ideal S64 .f32) : FVec Ideal S1x128 .f32 :=
  shapeCast S1x128 (concatenate S128 0 [⟨S64, b⟩, ⟨S64, b⟩] concatenates_S64_S64_S128_d0) shapeCasts_S128_S1x128

variable (m : (ℓ : Loc nD τ sig) → Buf (Elt Ideal) ℓ)

set_option maxHeartbeats 4000000 in
/-- The packed node states. -/
theorem V_v13 (c : Dev nD) : V m c main_v13
    = shapeCast S50000x128 (m ((c : Thread nD τ).loc main_arg0)) shapeCasts_S100000x64_S50000x128 := by
  show StableHlo.after hostOps0 (fun b => m (c, b)) (Proc.devRef .tc main_v13) = _
  after_results_simp
  rfl

set_option maxHeartbeats 4000000 in
/-- The packed aggregate. -/
theorem V_v14 (c : Dev nD) : V m c main_v14
    = shapeCast S50000x128 (aggr (m ((c : Thread nD τ).loc main_arg0)) (m ((c : Thread nD τ).loc main_arg1))
        (m ((c : Thread nD τ).loc main_arg4)) (m ((c : Thread nD τ).loc main_arg5))) shapeCasts_S100000x64_S50000x128 := by
  show StableHlo.after hostOps0 (fun b => m (c, b)) (Proc.devRef .tc main_v14) = _
  after_results_simp
  rfl

set_option maxHeartbeats 4000000 in
/-- The weight window holds the packed weight. -/
theorem V_v24 (c : Dev nD) : V m c main_v24 = wbd (m ((c : Thread nD τ).loc main_arg2)) := by
  show StableHlo.after hostOps0 (fun b => m (c, b)) (Proc.devRef .tc main_v24) = _
  after_results_simp
  rfl

set_option maxHeartbeats 4000000 in
/-- The bias window holds the bias row. -/
theorem V_v26 (c : Dev nD) : V m c main_v26 = biasRow (m ((c : Thread nD τ).loc main_arg3)) := by
  show StableHlo.after hostOps0 (fun b => m (c, b)) (Proc.devRef .tc main_v26) = _
  after_results_simp
  rfl

end Cert.KernelIdeal.Bridge
end
-- ==== Proof.Spec.lean ====
/-
  The result both programs compute, as one function of the node states `x` ([100000, 64]), the weight `W` ([64, 64]),
  the bias `b` ([64]) and the aggregate `A` ([100000, 64]): at row `r` and column `c`,
  the sum over `k < 64` of `x (r, k) * W (k, c)`, plus `b c`, plus `A (r, c)` — the additions in that order, on the
  extended reals.  The aggregate enters as an array of its own: both programs compute it by the same host operations
  from the same arguments, so it is never opened.
-/
import Idealize.ShloMosaic.PureOps.Ideal
import Idealize.ShloMosaic.Lib.ValueIdx

noncomputable section

namespace Cert.Spec

open Idealize.ShloMosaic Idealize.ShloMosaic.ValueIdx
open scoped BigOperators

/-- The linear map of the node states, plus the bias, plus the aggregate. -/
def linearPlus (x : (⟨2, ![100000, 64]⟩ : Shape).Idx → EReal) (W : (⟨2, ![64, 64]⟩ : Shape).Idx → EReal)
    (b : (⟨1, ![64]⟩ : Shape).Idx → EReal) (A : (⟨2, ![100000, 64]⟩ : Shape).Idx → EReal) :
    (⟨2, ![100000, 64]⟩ : Shape).Idx → EReal :=
  fun i => (∑ k : Fin 64, x (ix2 (n0 := 100000) (n1 := 64) (i 0) k) * W (ix2 (n0 := 64) (n1 := 64) k (i 1)))
    + b (ix1 (n := 64) (i 1)) + A i

/-- The same, at explicit coordinates. -/
theorem linearPlus_apply (x : (⟨2, ![100000, 64]⟩ : Shape).Idx → EReal) (W : (⟨2, ![64, 64]⟩ : Shape).Idx → EReal)
    (b : (⟨1, ![64]⟩ : Shape).Idx → EReal) (A : (⟨2, ![100000, 64]⟩ : Shape).Idx → EReal) (r : Fin 100000) (c : Fin 64) :
    linearPlus x W b A (ix2 r c) = (∑ k : Fin 64, x (ix2 r k) * W (ix2 k c)) + b (ix1 c) + A (ix2 r c) := rfl

end Cert.Spec

end
-- ==== Proof.Unpack.lean ====
/-
  Unpacking.  Row `r` of the [100000, 64] result and column `c'` sit, in the packed [50000, 128] layout, at packed row
  `r / 2` and column `64 (r % 2) + c'`: both are position `64 r + c'` in row-major order.  Packed row `r / 2` of the
  node states holds rows `r - r % 2` and `r - r % 2 + 1` side by side, so its half `r % 2` is row `r`.  Hence the
  packed product against the block-diagonal weight, read there, is the sum over `k < 64` of `x (r, k) * W (k, c')`;
  the bias row read there is `b c'` (the bias concatenated with itself, at `c'` or at `64 + c'`); and the packed
  aggregate read there is the aggregate at `(r, c')`.
-/
import proofs.«149925_j8907762172421_2_alg».proof.Proof.Spec
import proofs.«149925_j8907762172421_2_alg».proof.Proof.BlocksIdx
import proofs.«149925_j8907762172421_2_alg».proof.Proof.HostPrefix
import Idealize.ShloMosaic.Lib.Pipeline.Value
import Idealize.ShloMosaic.Lib.ValueIdx
import Idealize.ShloMosaic.Lib.ValueLayout

noncomputable section

namespace Cert.KernelIdeal.Bridge

open Idealize.ShloMosaic Idealize.ShloMosaic.TcCoe Idealize.ShloMosaic.ValueIdx Idealize.SL.Sem

open Cert.KernelIdeal Cert.KernelIdeal.Gen
open scoped BigOperators

/-- A [100000, 64] array reshaped to [50000, 128], read at packed row `r / 2`, half `r % 2`, column `k`. -/
theorem packed_apply (x : S100000x64.Idx → EReal) (r : Fin 100000) (k : Fin 64) :
    shapeCast S50000x128 x shapeCasts_S100000x64_S50000x128
        (ix2 (⟨r.val / 2, by omega⟩ : Fin 50000) (⟨r.val % 2 * 64 + k.val, by omega⟩ : Fin 128))
      = x (ix2 r k) :=
  shapeCast_apply x shapeCasts_S100000x64_S50000x128 _ _ (by
    rw [Shape.rowMajor_val_two, Shape.rowMajor_val_two]
    show r.val * 64 + k.val = r.val / 2 * 128 + (r.val % 2 * 64 + k.val)
    omega)

/-- The bias row at column `64 q + c'` is the bias at `c'`. -/
theorem biasRow_apply (b : FVec Ideal S64 .f32) (q : Fin 2) (c' : Fin 64) :
    biasRow b (ix2 (0 : Fin 1) (⟨q.val * 64 + c'.val, by omega⟩ : Fin 128)) = b (ix1 c') := by
  unfold biasRow
  rw [shapeCast_a_1a_apply]
  match q with
  | ⟨0, _⟩ =>
    refine concatenate_pair_apply_left (t := S128) (s₁ := S64) (s₂ := S64) (0 : Fin 1) b b concatenates_S64_S64_S128_d0 _ rfl (ix1 c') fun a => ?_
    match a with
    | ⟨0, _⟩ => show c'.val = 0 * 64 + c'.val; omega
  | ⟨1, _⟩ =>
    refine concatenate_pair_apply_right (t := S128) (s₁ := S64) (s₂ := S64) (0 : Fin 1) b b concatenates_S64_S64_S128_d0 _ rfl rfl (ix1 c')
      (fun a ha => absurd (Fin.ext (by have h1 : a.val < 1 := a.isLt; show a.val = 0; omega)) ha) ?_
    show c'.val + 64 = 1 * 64 + c'.val
    omega

/-- The packed result, reshaped back to [100000, 64], is the shared result. -/
theorem unpack (x : FVec Ideal S100000x64 .f32) (W : FVec Ideal S64x64 .f32) (b : FVec Ideal S64 .f32)
    (A : FVec Ideal S100000x64 .f32) :
    shapeCast S100000x64
        (packedOut (shapeCast S50000x128 x shapeCasts_S100000x64_S50000x128) (wbd W) (biasRow b)
          (shapeCast S50000x128 A shapeCasts_S100000x64_S50000x128))
        shapeCasts_S50000x128_S100000x64
      = Cert.Spec.linearPlus x W b A := by
  funext i
  obtain ⟨r, c', rfl⟩ : ∃ (r : Fin 100000) (c' : Fin 64), i = ix2 r c' := ⟨i 0, i 1, eq_ix2 i⟩
  have hr := r.isLt
  have hc := c'.isLt
  refine (shapeCast_apply _ shapeCasts_S50000x128_S100000x64 (ix2 r c')
    (ix2 (⟨r.val / 2, by omega⟩ : Fin 50000) (⟨r.val % 2 * 64 + c'.val, by omega⟩ : Fin 128)) (by
      rw [Shape.rowMajor_val_two, Shape.rowMajor_val_two]
      show r.val / 2 * 128 + (r.val % 2 * 64 + c'.val) = r.val * 64 + c'.val
      omega)).trans ?_
  show (∑ l : Fin 128, shapeCast S50000x128 x shapeCasts_S100000x64_S50000x128 (ix2 (⟨r.val / 2, by omega⟩ : Fin 50000) l)
          * wbd W (ix2 l (⟨(⟨r.val % 2, by omega⟩ : Fin 2).val * 64 + c'.val, by omega⟩ : Fin 128)))
        + biasRow b (ix2 (0 : Fin 1) (⟨(⟨r.val % 2, by omega⟩ : Fin 2).val * 64 + c'.val, by omega⟩ : Fin 128))
        + shapeCast S50000x128 A shapeCasts_S100000x64_S50000x128
            (ix2 (⟨r.val / 2, by omega⟩ : Fin 50000) (⟨r.val % 2 * 64 + c'.val, by omega⟩ : Fin 128))
      = Cert.Spec.linearPlus x W b A (ix2 r c')
  rw [Cert.Spec.linearPlus_apply, sum_wbd (fun l => shapeCast S50000x128 x shapeCasts_S100000x64_S50000x128 (ix2 (⟨r.val / 2, by omega⟩ : Fin 50000) l)) W
      ⟨r.val % 2, by omega⟩ c', biasRow_apply b ⟨r.val % 2, by omega⟩ c', packed_apply A r c']
  refine congrArg (· + _) (congrArg (· + _) (Finset.sum_congr rfl fun k _ => ?_))
  exact congrArg (· * _) (packed_apply x r k)

end Cert.KernelIdeal.Bridge
end
-- ==== Proof.KernelRun.lean ====
/-
  The idealized kernel's run, with its result named.  After the region the packed result array holds `packedOut` of the
  four staged arrays; the one host line after the region reshapes it back to [100000, 64]; and that, by the
  unpacking algebra, is the linear map of the node states plus the bias plus the aggregate.  The argument arrays
  end as launched.
-/
import proofs.«149925_j8907762172421_2_alg».proof.Proof.Gen.KernelIdeal.Frame
import proofs.«149925_j8907762172421_2_alg».proof.Proof.Blocks
import proofs.«149925_j8907762172421_2_alg».proof.Proof.HostPrefix
import proofs.«149925_j8907762172421_2_alg».proof.Proof.Unpack
import Idealize.ShloMosaic.Lib.StableHlo.Run
import Idealize.ShloMosaic.Lib.Pipeline.Value

noncomputable section

namespace Cert.KernelIdeal.Bridge

open Idealize.ShloMosaic Idealize.ShloMosaic.TcCoe Idealize.ShloMosaic.ValueIdx Idealize.SL.Sem

open Cert.KernelIdeal Cert.KernelIdeal.Gen Idealize.ShloMosaic.StableHlo

variable (m : (ℓ : Loc nD τ sig) → Buf (Elt Ideal) ℓ) (ρ : Dev nD → PrngReg)

/-- The result buffer after the host line that follows the region: the packed result reshaped to [100000, 64]. -/
theorem tail_v28 (c : Dev nD) :
    Pipeline.afterTail₀ cfgs (dats m) 0 (V0 m) [hostOps1] c main_v28
      = shapeCast S100000x64 ((dats m 0 c).arrAt 4 cfg0.N) shapeCasts_S50000x128_S100000x64 := by
  unfold Pipeline.afterTail₀
  show StableHlo.after hostOps1 _ (Proc.devRef .tc main_v28) = _
  after_results
  exact congrArg (fun A => shapeCast S100000x64 A shapeCasts_S50000x128_S100000x64)
    (Pipeline.withArrays_arr spec0 launch0.win.arr_inj c (V0 m c) (fun w => (dats m 0 c).arrAt w cfg0.N) 4)

/-- The result buffer is the shared result of the launch arguments. -/
theorem result_v28 (c : Dev nD) :
    Pipeline.afterTail₀ cfgs (dats m) 0 (V0 m) [hostOps1] c main_v28
      = Cert.Spec.linearPlus (m ((c : Thread nD τ).loc main_arg0)) (m ((c : Thread nD τ).loc main_arg2))
          (m ((c : Thread nD τ).loc main_arg3))
          (aggr (m ((c : Thread nD τ).loc main_arg0)) (m ((c : Thread nD τ).loc main_arg1))
            (m ((c : Thread nD τ).loc main_arg4)) (m ((c : Thread nD τ).loc main_arg5))) := by
  rw [tail_v28, final, V_v13, V_v14, V_v24, V_v26]
  exact unpack _ _ _ _

/-- Every weakly fair execution of the idealized kernel terminates with the result buffer at the shared result and the
    argument arrays unchanged. -/
theorem run : θ_run defs (onTc (τ := τ) (main (F := Ideal))) ⟨m, fun _ => 0, ρ⟩ (fun r => ∀ c : Dev nD,
      r.2.mem ((c.tc : Thread nD τ).loc main_v28)
        = Cert.Spec.linearPlus (m ((c.tc : Thread nD τ).loc main_arg0)) (m ((c.tc : Thread nD τ).loc main_arg2))
            (m ((c.tc : Thread nD τ).loc main_arg3))
            (aggr (m ((c.tc : Thread nD τ).loc main_arg0)) (m ((c.tc : Thread nD τ).loc main_arg1))
              (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v28 (Pipeline.mem_restRefs_of main_v28 (by decide) (by decide))).trans (result_v28 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Bridge
end
-- ==== Proof.RefValue.lean ====
/-
  The reference's result is the shared result.  The reference computes `(x · W + b) + A` directly: a matrix product
  of the node states with the weight (at row `r`, column `c` the sum over `k < 64` of `x (r, k) * W (k, c)`), the bias
  laid out as a row and copied down the rows (at `(r, c)` it is `b c`), and the aggregate added last.
-/
import proofs.«149925_j8907762172421_2_alg».proof.Proof.Gen.ReferenceIdeal.Read
import proofs.«149925_j8907762172421_2_alg».proof.Proof.Spec
import Idealize.ShloMosaic.Lib.ValueIdx

noncomputable section

namespace Cert.ReferenceIdeal.RefValue

open Idealize.ShloMosaic Idealize.ShloMosaic.TcCoe Idealize.ShloMosaic.ValueIdx Idealize.SL.Sem

open Cert.ReferenceIdeal Cert.ReferenceIdeal.Gen Cert.ReferenceIdeal.Read
open scoped BigOperators

/-- The reference's last stage is the shared result of the arguments and the reference's own aggregate stage. -/
theorem result_eq (x0 : FVec Ideal S100000x64 .f32) (x1 : FVec Ideal S3200000 .f32) (x2 : FVec Ideal S64x64 .f32)
    (x3 : FVec Ideal S64 .f32) (x4 x5 : IVec S3200000 32) :
    val_main_v17 (F := Ideal) x0 x1 x2 x3 x4 x5
      = Cert.Spec.linearPlus x0 x2 x3 (val_main_v12 (F := Ideal) x0 x1 x4 x5) := by
  funext i
  obtain ⟨r, c, rfl⟩ : ∃ (r : Fin 100000) (c : Fin 64), i = ix2 r c := ⟨i 0, i 1, eq_ix2 i⟩
  rw [val_main_v17_apply, val_main_v16_apply, val_main_v13_apply, val_main_v15_apply, val_main_v14_apply,
    Cert.Spec.linearPlus_apply]
  have e1 : ∀ k : Fin 64, lidx_main_v13 (ix2 r c) k = ix2 r k := fun k => funext fun a => by
    match a with
    | ⟨0, _⟩ => rfl
    | ⟨1, _⟩ => rfl
  have e2 : ∀ k : Fin 64, ridx_main_v13 (ix2 r c) k = ix2 k c := fun k => funext fun a => by
    match a with
    | ⟨0, _⟩ => rfl
    | ⟨1, _⟩ => rfl
  have e3 : idx_main_v14 (idx_main_v15 (ix2 r c)) = ix1 c := funext fun a => by
    match a with
    | ⟨0, _⟩ => rfl
  rw [e3]
  refine congrArg (· + _) (congrArg (· + _) (Finset.sum_congr rfl fun k _ => ?_))
  rw [e1 k, e2 k]

end Cert.ReferenceIdeal.RefValue
end
-- ==== Proof.lean ====
/-
  A graph layer: each node's new state is a linear map of its old state plus a bias plus the sum, over the edges
  that end at the node, of the edge's weight times the state of the node the edge starts from.

  Both programs compute the edge sum (the aggregate) by the same host operations from the same arguments, so it is
  carried as one array `A` and never opened.  They differ in how `x · W + b + A` is computed.  The reference multiplies
  the [100000, 64] node states by the [64, 64] weight directly.  The kernel packs rows `2 p` and `2 p + 1` of the node
  states (and of the aggregate) side by side into one row of 128, replaces `W` by the 128 × 128 block-diagonal
  matrix diag(W, W), repeats the bias twice along a row of 128, computes `xp · diag(W, W) + bb + Ap` in five row
  blocks of 10000 packed rows, and unpacks.  On the extended reals the two agree entry by entry: entry
  `(r, c)` sits in packed row `r / 2` at column `64 (r % 2) + c`; column `64 q + c` of diag(W, W) is column `c` of `W`
  in the rows `[64 q, 64 q + 64)` and zero elsewhere; a product with zero is zero and a sum of zeros is zero, so the
  packed row's product there is the sum over `k < 64` of `x (r, k) * W (k, c)`; the doubled bias there is `b c`; the
  packed aggregate there is `A (r, c)`; and both programs add in the order (product + bias) + aggregate.  The
  changes of float format on the way into the matrix unit are the identity on the extended reals, and none of this
  uses that the inputs are finite.  The idealized kernel is the kernel's own text read at the ideal values (the
  idealization rewrote nothing).
-/
import proofs.«149925_j8907762172421_2_alg».proof.Defs
import proofs.«149925_j8907762172421_2_alg».proof.Proof.Gen.Kernel
import proofs.«149925_j8907762172421_2_alg».proof.Proof.Gen.Kernel.Skeleton
import proofs.«149925_j8907762172421_2_alg».proof.Proof.Gen.Kernel.Launch
import proofs.«149925_j8907762172421_2_alg».proof.Proof.Gen.Kernel.Points
import proofs.«149925_j8907762172421_2_alg».proof.Proof.Gen.Kernel.Frame
import proofs.«149925_j8907762172421_2_alg».proof.Proof.Gen.KernelIdeal
import proofs.«149925_j8907762172421_2_alg».proof.Proof.Gen.KernelIdeal.Skeleton
import proofs.«149925_j8907762172421_2_alg».proof.Proof.Gen.KernelIdeal.Launch
import proofs.«149925_j8907762172421_2_alg».proof.Proof.Gen.KernelIdeal.Points
import proofs.«149925_j8907762172421_2_alg».proof.Proof.Gen.KernelIdeal.Frame
import proofs.«149925_j8907762172421_2_alg».proof.Proof.Gen.ReferenceIdeal
import proofs.«149925_j8907762172421_2_alg».proof.Proof.Gen.ReferenceIdeal.Run
import proofs.«149925_j8907762172421_2_alg».proof.Proof.Gen.ReferenceIdeal.Read
import proofs.«149925_j8907762172421_2_alg».proof.Proof.Gen.Pre_finite_inputs
import proofs.«149925_j8907762172421_2_alg».proof.Proof.KernelRun
import proofs.«149925_j8907762172421_2_alg».proof.Proof.RefValue
import Idealize.ShloMosaic.Adequacy
import Idealize.ShloMosaic.Init

noncomputable section

namespace Cert.Proof

open Idealize.ShloMosaic Idealize.SL.Sem

/-- The aggregate as the kernel's host lines compute it and as the reference's do: the same operations on the same
    arguments. -/
theorem aggr_eq (x0 : FVec Ideal Cert.KernelIdeal.S100000x64 .f32) (x1 : FVec Ideal Cert.KernelIdeal.S3200000 .f32)
    (x4 x5 : IVec Cert.KernelIdeal.S3200000 32) :
    Cert.KernelIdeal.Bridge.aggr x0 x1 x4 x5 = Cert.ReferenceIdeal.Read.val_main_v12 (F := Ideal) x0 x1 x4 x5 := rfl

/-- The kernel as printed terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at the shared function of the
    arguments: the kernel by its run through the packed layout, the reference by its run read stage by stage. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, ← aggr_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
